-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S400000x128 : Shape := ⟨2, ![400000, 128]⟩
abbrev S512x128 : Shape := ⟨2, ![512, 128]⟩
abbrev S512 : Shape := ⟨1, ![512]⟩
abbrev S1200000 : Shape := ⟨1, ![1200000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S400000x128 : S_.BroadcastsInDim S400000x128 (![] : Fin 0 → Fin S400000x128.rank)
  reducesTo_S400000x128_S_d0_1 : S400000x128.ReducesTo [0, 1] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x128 .f32) (main_arg5 : FVec F S512 .f32) (main_arg6 : FVec F S512 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S512x128 .f32 := Host.absf main_arg4
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S100000x128 .f32) (main_arg1 : FVec F S400000x128 .f32) (main_arg2 : FVec F S400000x128 .f32) (main_arg3 : FVec F S512x128 .f32) (main_arg4 : FVec F S512x128 .f32) (main_arg5 : FVec F S512 .f32) (main_arg6 : FVec F S512 .f32) (main_arg7 : IVec S1200000 32) (main_arg8 : IVec S1200000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S400000x128 .f32 := Host.absf main_arg1
  let main_cst_0 : FVec F S_ .f32 := constant S_ .f32 0x7F800000#32
  let main_v5 : FVec F S400000x128 .f32 := broadcastInDim S400000x128 ![] bcast_S_S400000x128 main_cst_0
  let main_v6 : IVec S400000x128 1 := cmpf .olt main_v4 main_v5
  let main_c_1 : IVec S_ 1 := constantI S_ 1 1#1
  let main_v7 : IVec S_ 1 := (fun x v => Host.reduce IntOp.andi x v reducesTo_S400000x128_S_d0_1 h_S_) main_v6 main_c_1
  let main_v8 : IVec S_ 1 := andi main_v3 main_v7
  let main_v9 : FVec F S400000x128 .f32 := Host.absf main_arg2
  let main_cst_2 : FVec F S_ .f32 := constant S_ .f32 0x7F800000#32
  let main_v10 : FVec F S400000x128 .f32 := broadcastInDim S400000x128 ![] bcast_S_S400000x128 main_cst_2
  let main_v11 : IVec S400000x128 1 := cmpf .olt main_v9 main_v10
  let main_c_3 : IVec S_ 1 := constantI S_ 1 1#1
  let main_v12 : IVec S_ 1 := (fun x v => Host.reduce IntOp.andi x v reducesTo_S400000x128_S_d0_1 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg4 main_arg5 main_arg6 main_v13 main_v16
-- ==== Kernel.lean ====
abbrev S100000x128 : Shape := ⟨2, ![100000, 128]⟩
abbrev S400000x128 : Shape := ⟨2, ![400000, 128]⟩
abbrev S512x128 : Shape := ⟨2, ![512, 128]⟩
abbrev S512 : Shape := ⟨1, ![512]⟩
abbrev S1200000 : Shape := ⟨1, ![1200000]⟩
abbrev S_ : Shape := ⟨0, ![]⟩
abbrev S1200000x1 : Shape := ⟨2, ![1200000, 1]⟩
abbrev S1200000x128 : Shape := ⟨2, ![1200000, 128]⟩
abbrev S128x512 : Shape := ⟨2, ![128, 512]⟩
abbrev S1x512 : Shape := ⟨2, ![1, 512]⟩
abbrev S3200x128 : Shape := ⟨2, ![3200, 128]⟩
abbrev S3200x512 : Shape := ⟨2, ![3200, 512]⟩

abbrev nBuf : Space → Nat
  | .hbm => 30
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S400000x128, .f32⟩
  | .hbm, ⟨2, _⟩ => ⟨S400000x128, .f32⟩
  | .hbm, ⟨3, _⟩ => ⟨S512x128, .f32⟩
  | .hbm, ⟨4, _⟩ => ⟨S512x128, .f32⟩
  | .hbm, ⟨5, _⟩ => ⟨S512, .f32⟩
  | .hbm, ⟨6, _⟩ => ⟨S512, .f32⟩
  | .hbm, ⟨7, _⟩ => ⟨S1200000, .i32⟩
  | .hbm, ⟨8, _⟩ => ⟨S1200000, .i32⟩
  | .hbm, ⟨9, _⟩ => ⟨S_, .i32⟩
  | .hbm, ⟨10, _⟩ => ⟨S1200000, .i32⟩
  | .hbm, ⟨11, _⟩ => ⟨S1200000, .i1⟩
  | .hbm, ⟨12, _⟩ => ⟨S_, .i32⟩
  | .hbm, ⟨13, _⟩ => ⟨S1200000, .i32⟩
  | .hbm, ⟨14, _⟩ => ⟨S1200000, .i32⟩
  | .hbm, ⟨15, _⟩ => ⟨S1200000, .i32⟩
  | .hbm, ⟨16, _⟩ => ⟨S1200000x1, .i32⟩
  | .hbm, ⟨17, _⟩ => ⟨S1200000x128, .f32⟩
  | .hbm, ⟨18, _⟩ => ⟨S_, .f32⟩
  | .hbm, ⟨19, _⟩ => ⟨S400000x128, .f32⟩
  | .hbm, ⟨20, _⟩ => ⟨S1200000x1, .i32⟩
  | .hbm, ⟨21, _⟩ => ⟨S400000x128, .f32⟩
  | .hbm, ⟨22, _⟩ => ⟨S128x512, .f32⟩
  | .hbm, ⟨23, _⟩ => ⟨S128x512, .bf16⟩
  | .hbm, ⟨24, _⟩ => ⟨S128x512, .f32⟩
  | .hbm, ⟨25, _⟩ => ⟨S128x512, .bf16⟩
  | .hbm, ⟨26, _⟩ => ⟨S1x512, .f32⟩
  | .hbm, ⟨27, _⟩ => ⟨S1x512, .f32⟩
  | .hbm, ⟨28, _⟩ => ⟨S400000x128, .f32⟩
  | .hbm, ⟨29, _⟩ => ⟨S400000x128, .f32⟩
  | .local _ .vmem, ⟨0, _⟩ => ⟨S3200x128, .f32⟩
  | .local _ .vmem, ⟨1, _⟩ => ⟨S3200x128, .f32⟩
  | .local _ .vmem, ⟨2, _⟩ => ⟨S3200x128, .f32⟩
  | .local _ .vmem, ⟨3, _⟩ => ⟨S3200x128, .f32⟩
  | .local _ .vmem, ⟨4, _⟩ => ⟨S3200x128, .f32⟩
  | .local _ .vmem, ⟨5, _⟩ => ⟨S3200x128, .f32⟩
  | .local _ .vmem, ⟨6, _⟩ => ⟨S128x512, .bf16⟩
  | .local _ .vmem, ⟨7, _⟩ => ⟨S128x512, .bf16⟩
  | .local _ .vmem, ⟨8, _⟩ => ⟨S1x512, .f32⟩
  | .local _ .vmem, ⟨9, _⟩ => ⟨S1x512, .f32⟩
  | .local _ .vmem, ⟨10, _⟩ => ⟨S3200x128, .f32⟩
  | .local _ .vmem, ⟨11, _⟩ => ⟨S3200x128, .f32⟩
  | .local _ .vmem, ⟨12, _⟩ => ⟨S3200x128, .f32⟩
  | .local _ .vmem, ⟨13, _⟩ => ⟨S3200x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16_0 : Ref sig .tc := ⟨.hbm, 28, rfl⟩
abbrev main_v16_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3200x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3200x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S400000x128 : S_.BroadcastsInDim S400000x128 (![] : Fin 0 → Fin S400000x128.rank)
  transposes_S512x128_S128x512_1_0 : S512x128.Transposes [1, 0] S128x512
  bitsLt_bf16_f32 : FTy.bits .bf16 < FTy.bits .f32
  shapeCasts_S512_S1x512 : S512.ShapeCasts S1x512
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S3200x512 : S1x512.Broadcasts S3200x512
  slices_S3200x512_o0_0_S3200x128 : S3200x512.Slices ![0, 0] S3200x128
  slices_S3200x512_o0_128_S3200x128 : S3200x512.Slices ![0, 128] S3200x128
  slices_S3200x512_o0_256_S3200x128 : S3200x512.Slices ![0, 256] S3200x128
  slices_S3200x512_o0_384_S3200x128 : S3200x512.Slices ![0, 384] S3200x128
  gather_S100000x128_S1200000x1_S1200000x128_1_0_n_n_0_1_1128_wf : GatherDims.WF S100000x128 S1200000x1 S1200000x128 [1] [0] [] [0] [] 1 ![1, 128]
  scatter_S400000x128_S1200000x1_S1200000x128_1_0_0_1_wf : ScatterDims.WF S400000x128 S1200000x1 S1200000x128 [1] [0] [0] 1
  dot_S3200x128_S128x512_S3200x512_1_0_0_1_n_n_wf : DotDims.WF S3200x128 S128x512 S3200x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S400000x128.size a
  hwx0_0 : ∀ i : grid0.Coords, EltTy.bits .f32 = 32 ∨ (Rect.block (s := S400000x128) S3200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x128.size a ≤ S400000x128.size a
  hwx0_1 : ∀ i : grid0.Coords, EltTy.bits .f32 = 32 ∨ (Rect.block (s := S400000x128) S3200x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x128.size a ≤ S400000x128.size a
  hwx0_2 : ∀ i : grid0.Coords, EltTy.bits .f32 = 32 ∨ (Rect.block (s := S400000x128) S3200x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .bf16 = 32 ∨ (Rect.block (s := S128x512) S128x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S128x512.size a
  hwx0_4 : ∀ i : grid0.Coords, EltTy.bits .bf16 = 32 ∨ (Rect.block (s := S128x512) S128x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3200x128.size a ≤ S400000x128.size a
  hwx0_7 : ∀ i : grid0.Coords, EltTy.bits .f32 = 32 ∨ (Rect.block (s := S400000x128) S3200x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S3200x128.size a ≤ S400000x128.size a
  hwx0_8 : ∀ i : grid0.Coords, EltTy.bits .f32 = 32 ∨ (Rect.block (s := S400000x128) S3200x128.size (cc0_transform_8 i) (hinb0_8 i)).WholeWords (EltTy.packing .f32)

variable [Facts₀]

def gather_S100000x128_S1200000x1_S1200000x128_1_0_n_n_0_1_1128 : GatherDims S100000x128 S1200000x1 S1200000x128 where
  offsetDims := [1]
  collapsedSliceDims := [0]
  operandBatchingDims := []
  startIndicesBatchingDims := []
  startIndexMap := [0]
  indexVectorDim := 1
  sliceSizes := ![1, 128]
  wf := gather_S100000x128_S1200000x1_S1200000x128_1_0_n_n_0_1_1128_wf
def scatter_S400000x128_S1200000x1_S1200000x128_1_0_0_1 : ScatterDims S400000x128 S1200000x1 S1200000x128 where
  updateWindowDims := [1]
  insertedWindowDims := [0]
  scatterDimsToOperandDims := [0]
  indexVectorDim := 1
  wf := scatter_S400000x128_S1200000x1_S1200000x128_1_0_0_1_wf
def dot_S3200x128_S128x512_S3200x512_1_0_0_1_n_n : DotDims S3200x128 S128x512 S3200x512 where
  lhsContracting := [1]
  rhsContracting := [0]
  lhsNonContracting := [0]
  rhsNonContracting := [1]
  lhsBatch := []
  rhsBatch := []
  wf := dot_S3200x128_S128x512_S3200x512_1_0_0_1_n_n_wf

abbrev win0_0 : Pipeline.Window sig grid0 :=
  Pipeline.Window.ofSpec (Memref.whole main_v9) S3200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3200x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S128x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16_0) S3200x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v16_1) S3200x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x128 : Shape := ⟨2, ![100000, 128]⟩
abbrev S400000x128 : Shape := ⟨2, ![400000, 128]⟩
abbrev S512x128 : Shape := ⟨2, ![512, 128]⟩
abbrev S512 : Shape := ⟨1, ![512]⟩
abbrev S1200000 : Shape := ⟨1, ![1200000]⟩
abbrev S_ : Shape := ⟨0, ![]⟩
abbrev S1200000x1 : Shape := ⟨2, ![1200000, 1]⟩
abbrev S1200000x128 : Shape := ⟨2, ![1200000, 128]⟩
abbrev S128x512 : Shape := ⟨2, ![128, 512]⟩
abbrev S400000x512 : Shape := ⟨2, ![400000, 512]⟩
abbrev S1x512 : Shape := ⟨2, ![1, 512]⟩

abbrev nBuf : Space → Nat
  | .hbm => 67
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S400000x128, .f32⟩
  | .hbm, ⟨2, _⟩ => ⟨S400000x128, .f32⟩
  | .hbm, ⟨3, _⟩ => ⟨S512x128, .f32⟩
  | .hbm, ⟨4, _⟩ => ⟨S512x128, .f32⟩
  | .hbm, ⟨5, _⟩ => ⟨S512, .f32⟩
  | .hbm, ⟨6, _⟩ => ⟨S512, .f32⟩
  | .hbm, ⟨7, _⟩ => ⟨S1200000, .i32⟩
  | .hbm, ⟨8, _⟩ => ⟨S1200000, .i32⟩
  | .hbm, ⟨9, _⟩ => ⟨S_, .i32⟩
  | .hbm, ⟨10, _⟩ => ⟨S1200000, .i32⟩
  | .hbm, ⟨11, _⟩ => ⟨S1200000, .i1⟩
  | .hbm, ⟨12, _⟩ => ⟨S_, .i32⟩
  | .hbm, ⟨13, _⟩ => ⟨S1200000, .i32⟩
  | .hbm, ⟨14, _⟩ => ⟨S1200000, .i32⟩
  | .hbm, ⟨15, _⟩ => ⟨S1200000, .i32⟩
  | .hbm, ⟨16, _⟩ => ⟨S1200000x1, .i32⟩
  | .hbm, ⟨17, _⟩ => ⟨S1200000x128, .f32⟩
  | .hbm, ⟨18, _⟩ => ⟨S_, .f32⟩
  | .hbm, ⟨19, _⟩ => ⟨S400000x128, .f32⟩
  | .hbm, ⟨20, _⟩ => ⟨S1200000x1, .i32⟩
  | .hbm, ⟨21, _⟩ => ⟨S400000x128, .f32⟩
  | .hbm, ⟨22, _⟩ => ⟨S128x512, .f32⟩
  | .hbm, ⟨23, _⟩ => ⟨S400000x512, .f32⟩
  | .hbm, ⟨24, _⟩ => ⟨S1x512, .f32⟩
  | .hbm, ⟨25, _⟩ => ⟨S400000x512, .f32⟩
  | .hbm, ⟨26, _⟩ => ⟨S400000x512, .f32⟩
  | .hbm, ⟨27, _⟩ => ⟨S128x512, .f32⟩
  | .hbm, ⟨28, _⟩ => ⟨S400000x512, .f32⟩
  | .hbm, ⟨29, _⟩ => ⟨S400000x512, .f32⟩
  | .hbm, ⟨30, _⟩ => ⟨S1x512, .f32⟩
  | .hbm, ⟨31, _⟩ => ⟨S400000x512, .f32⟩
  | .hbm, ⟨32, _⟩ => ⟨S400000x512, .f32⟩
  | .hbm, ⟨33, _⟩ => ⟨S400000x128, .f32⟩
  | .hbm, ⟨34, _⟩ => ⟨S400000x128, .f32⟩
  | .hbm, ⟨35, _⟩ => ⟨S400000x128, .f32⟩
  | .hbm, ⟨36, _⟩ => ⟨S400000x128, .f32⟩
  | .hbm, ⟨37, _⟩ => ⟨S400000x128, .f32⟩
  | .hbm, ⟨38, _⟩ => ⟨S400000x128, .f32⟩
  | .hbm, ⟨39, _⟩ => ⟨S_, .f32⟩
  | .hbm, ⟨40, _⟩ => ⟨S400000x128, .f32⟩
  | .hbm, ⟨41, _⟩ => ⟨S400000x128, .f32⟩
  | .hbm, ⟨42, _⟩ => ⟨S_, .f32⟩
  | .hbm, ⟨43, _⟩ => ⟨S400000x128, .f32⟩
  | .hbm, ⟨44, _⟩ => ⟨S400000x128, .f32⟩
  | .hbm, ⟨45, _⟩ => ⟨S400000x128, .f32⟩
  | .hbm, ⟨46, _⟩ => ⟨S400000x128, .f32⟩
  | .hbm, ⟨47, _⟩ => ⟨S_, .f32⟩
  | .hbm, ⟨48, _⟩ => ⟨S400000x128, .f32⟩
  | .hbm, ⟨49, _⟩ => ⟨S400000x128, .f32⟩
  | .hbm, ⟨50, _⟩ => ⟨S_, .f32⟩
  | .hbm, ⟨51, _⟩ => ⟨S400000x128, .f32⟩
  | .hbm, ⟨52, _⟩ => ⟨S400000x128, .f32⟩
  | .hbm, ⟨53, _⟩ => ⟨S400000x128, .f32⟩
  | .hbm, ⟨54, _⟩ => ⟨S400000x128, .f32⟩
  | .hbm, ⟨55, _⟩ => ⟨S400000x128, .f32⟩
  | .hbm, ⟨56, _⟩ => ⟨S_, .f32⟩
  | .hbm, ⟨57, _⟩ => ⟨S400000x128, .f32⟩
  | .hbm, ⟨58, _⟩ => ⟨S400000x128, .f32⟩
  | .hbm, ⟨59, _⟩ => ⟨S_, .f32⟩
  | .hbm, ⟨60, _⟩ => ⟨S400000x128, .f32⟩
  | .hbm, ⟨61, _⟩ => ⟨S400000x128, .f32⟩
  | .hbm, ⟨62, _⟩ => ⟨S400000x128, .f32⟩
  | .hbm, ⟨63, _⟩ => ⟨S400000x128, .f32⟩
  | .hbm, ⟨64, _⟩ => ⟨S400000x128, .f32⟩
  | .hbm, ⟨65, _⟩ => ⟨S400000x128, .f32⟩
  | .hbm, ⟨66, _⟩ => ⟨S400000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_1 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]

class Facts₀ : Prop where
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S400000x128 : S_.BroadcastsInDim S400000x128 (![] : Fin 0 → Fin S400000x128.rank)
  transposes_S512x128_S128x512_1_0 : S512x128.Transposes [1, 0] S128x512
  bcast_S512_S1x512_1 : S512.BroadcastsInDim S1x512 (![1] : Fin 1 → Fin S1x512.rank)
  bcast_S1x512_S400000x512_0_1 : S1x512.BroadcastsInDim S400000x512 (![0, 1] : Fin 2 → Fin S400000x512.rank)
  slices_S400000x512_S400000x128_0_0 : S400000x512.Slices ![0, 0] S400000x128
  slices_S400000x512_S400000x128_0_128 : S400000x512.Slices ![0, 128] S400000x128
  slices_S400000x512_S400000x128_0_256 : S400000x512.Slices ![0, 256] S400000x128
  slices_S400000x512_S400000x128_0_384 : S400000x512.Slices ![0, 384] S400000x128
  gather_S100000x128_S1200000x1_S1200000x128_1_0_n_n_0_1_1128_wf : GatherDims.WF S100000x128 S1200000x1 S1200000x128 [1] [0] [] [0] [] 1 ![1, 128]
  scatter_S400000x128_S1200000x1_S1200000x128_1_0_0_1_wf : ScatterDims.WF S400000x128 S1200000x1 S1200000x128 [1] [0] [0] 1
  dot_S400000x128_S128x512_S400000x512_1_0_0_1_n_n_wf : DotDims.WF S400000x128 S128x512 S400000x512 [1] [0] [0] [1] [] []

variable [Facts₀]

def gather_S100000x128_S1200000x1_S1200000x128_1_0_n_n_0_1_1128 : GatherDims S100000x128 S1200000x1 S1200000x128 where
  offsetDims := [1]
  collapsedSliceDims := [0]
  operandBatchingDims := []
  startIndicesBatchingDims := []
  startIndexMap := [0]
  indexVectorDim := 1
  sliceSizes := ![1, 128]
  wf := gather_S100000x128_S1200000x1_S1200000x128_1_0_n_n_0_1_1128_wf
def scatter_S400000x128_S1200000x1_S1200000x128_1_0_0_1 : ScatterDims S400000x128 S1200000x1 S1200000x128 where
  updateWindowDims := [1]
  insertedWindowDims := [0]
  scatterDimsToOperandDims := [0]
  indexVectorDim := 1
  wf := scatter_S400000x128_S1200000x1_S1200000x128_1_0_0_1_wf
def dot_S400000x128_S128x512_S400000x512_1_0_0_1_n_n : DotDims S400000x128 S128x512 S400000x512 where
  lhsContracting := [1]
  rhsContracting := [0]
  lhsNonContracting := [0]
  rhsNonContracting := [1]
  lhsBatch := []
  rhsBatch := []
  wf := dot_S400000x128_S128x512_S400000x512_1_0_0_1_n_n_wf

class Facts : Prop extends Facts₀ where

variable [Facts]
-- ==== Proof.Cell.lean ====
/-
  One step of an LSTM cell, row by row, on the extended reals.

  A row carries 128 features.  From the row `x` of aggregated messages and the row `h` of the previous hidden state, the
  512 gate pre-activations are
      gate q = Σₖ x k · wi q k  +  bi q  +  Σₖ h k · wh q k  +  bh q        (q < 512),
  the four sums taken in exactly this order (no reassociation is needed anywhere below, so nothing here asks
  for finiteness).  Columns 0‥127 are the input gate, 128‥255 the forget gate, 256‥383 the candidate and 384‥511 the
  output gate.  With σ the logistic function and `c` the row's old cell state, the new cell state and the new hidden
  state of the row are
      cell j = σ(gate (128 + j)) · c j + σ(gate j) · tanh(gate (256 + j)),
      hid  j = σ(gate (384 + j)) · tanh(cell j)
  (the definitions below take the one entry `c j` they use).
  Rows do not interact: entry `(r, j)` of either result depends only on row `r` of the three row arrays, on the two
  weight matrices and on the two bias vectors.  `cellArr` and `hidArr` are the two results as whole [400000, 128]
  arrays.
-/
import Idealize.ShloMosaic.PureOps.Ideal
import Idealize.ShloMosaic.Lib.ValueIdx

noncomputable section

open scoped BigOperators

namespace Cert.Cell

open Idealize.ShloMosaic Idealize.ShloMosaic.ValueIdx

/-- Column `j` of the gate block that starts at column `o`. -/
abbrev gcol (o : Nat) (ho : o + 128 ≤ 512) (j : Fin 128) : Fin 512 := ⟨j.val + o, by have := j.isLt; omega⟩

/-- The gate pre-activation of one row at gate column `q`. -/
def gate (x h : Fin 128 → EReal) (wi wh : Fin 512 → Fin 128 → EReal) (bi bh : Fin 512 → EReal) (q : Fin 512) : EReal :=
  (∑ k : Fin 128, x k * wi q k) + bi q + (∑ k : Fin 128, h k * wh q k) + bh q

/-- The new cell state of one row at feature `j`, from the old state's entry `cj` there: forget gate times the old state
    plus input gate times candidate. -/
def cell (x h : Fin 128 → EReal) (cj : EReal) (wi wh : Fin 512 → Fin 128 → EReal) (bi bh : Fin 512 → EReal) (j : Fin 128) : EReal :=
  Ideal.logistic (gate x h wi wh bi bh (gcol 128 (by omega) j)) * cj
    + Ideal.logistic (gate x h wi wh bi bh (gcol 0 (by omega) j)) * Ideal.tanh (gate x h wi wh bi bh (gcol 256 (by omega) j))

/-- The new hidden state of one row at feature `j`: output gate times `tanh` of the new cell state. -/
def hid (x h : Fin 128 → EReal) (cj : EReal) (wi wh : Fin 512 → Fin 128 → EReal) (bi bh : Fin 512 → EReal) (j : Fin 128) : EReal :=
  Ideal.logistic (gate x h wi wh bi bh (gcol 384 (by omega) j)) * Ideal.tanh (cell x h cj wi wh bi bh j)

/-- `cell` of equal arguments. -/
theorem cell_congr {x x' h h' : Fin 128 → EReal} {cj cj' : EReal} {wi wi' wh wh' : Fin 512 → Fin 128 → EReal}
    {bi bi' bh bh' : Fin 512 → EReal} (hx : x = x') (hh : h = h') (hc : cj = cj') (hwi : wi = wi') (hwh : wh = wh')
    (hbi : bi = bi') (hbh : bh = bh') (j : Fin 128) :
    cell x h cj wi wh bi bh j = cell x' h' cj' wi' wh' bi' bh' j := by
  subst hx hh hc hwi hwh hbi hbh; rfl

/-- `hid` of equal arguments. -/
theorem hid_congr {x x' h h' : Fin 128 → EReal} {cj cj' : EReal} {wi wi' wh wh' : Fin 512 → Fin 128 → EReal}
    {bi bi' bh bh' : Fin 512 → EReal} (hx : x = x') (hh : h = h') (hc : cj = cj') (hwi : wi = wi') (hwh : wh = wh')
    (hbi : bi = bi') (hbh : bh = bh') (j : Fin 128) :
    hid x h cj wi wh bi bh j = hid x' h' cj' wi' wh' bi' bh' j := by
  subst hx hh hc hwi hwh hbi hbh; rfl

/-- The [rows, 128] arrays, the [512, 128] weight matrices and the [512] bias vectors. -/
abbrev Rows : Shape := ⟨2, ![400000, 128]⟩
abbrev Wts : Shape := ⟨2, ![512, 128]⟩
abbrev Bias : Shape := ⟨1, ![512]⟩

/-- Row `r` of a two-axis array. -/
abbrev rowOf {n : Nat} (a : (⟨2, ![n, 128]⟩ : Shape).Idx → EReal) (r : Fin n) : Fin 128 → EReal := fun k => a (ix2 r k)
/-- A weight matrix by gate column and feature. -/
abbrev wOf (w : Wts.Idx → EReal) : Fin 512 → Fin 128 → EReal := fun q k => w (ix2 q k)
/-- A bias vector by gate column. -/
abbrev bOf (b : Bias.Idx → EReal) : Fin 512 → EReal := fun q => b (ix1 q)

/-- The new cell state of every row. -/
def cellArr (msg h c : Rows.Idx → EReal) (wi wh : Wts.Idx → EReal) (bi bh : Bias.Idx → EReal) : Rows.Idx → EReal :=
  fun i => cell (rowOf msg (i 0)) (rowOf h (i 0)) (c i) (wOf wi) (wOf wh) (bOf bi) (bOf bh) (i 1)

/-- The new hidden state of every row. -/
def hidArr (msg h c : Rows.Idx → EReal) (wi wh : Wts.Idx → EReal) (bi bh : Bias.Idx → EReal) : Rows.Idx → EReal :=
  fun i => hid (rowOf msg (i 0)) (rowOf h (i 0)) (c i) (wOf wi) (wOf wh) (bOf bi) (bOf bh) (i 1)

/-- `cellArr` at the entry `(r, j)`. -/
theorem cellArr_apply (msg h c : Rows.Idx → EReal) (wi wh : Wts.Idx → EReal) (bi bh : Bias.Idx → EReal) (r : Fin 400000) (j : Fin 128) :
    cellArr msg h c wi wh bi bh (ix2 r j) = cell (rowOf msg r) (rowOf h r) (c (ix2 r j)) (wOf wi) (wOf wh) (bOf bi) (bOf bh) j := rfl

/-- `hidArr` at the entry `(r, j)`. -/
theorem hidArr_apply (msg h c : Rows.Idx → EReal) (wi wh : Wts.Idx → EReal) (bi bh : Bias.Idx → EReal) (r : Fin 400000) (j : Fin 128) :
    hidArr msg h c wi wh bi bh (ix2 r j) = hid (rowOf msg r) (rowOf h r) (c (ix2 r j)) (wOf wi) (wOf wh) (bOf bi) (bOf bh) j := rfl

/-- The float pattern of `1.0` denotes the real number one. -/
theorem ofBits_one : Ideal.ofBits .f32 0x3F800000#32 = 1 := by
  simp [Ideal.ofBits, Ideal.ieee, -EReal.coe_mul]; norm_num

/-- The logistic function spelt with a quotient, as a host program expands it: `1 / (1 + e^(-x))` on every extended real. -/
theorem logistic_expanded (x : EReal) :
    Ideal.div (Ideal.ofBits .f32 0x3F800000#32) (Ideal.ofBits .f32 0x3F800000#32 + Ideal.exp (-x)) = Ideal.logistic x := by
  rw [ofBits_one]; rfl

end Cert.Cell

end
-- ==== Proof.RefCell.lean ====
/-
  The reference computes the LSTM step of `Cell.lean`.

  Its program aggregates the messages `msg` (a gather of literal rows followed by a scatter-add into the clause rows:
  kept here as the one term the program writes, never opened), forms the [400000, 512] gate array
      msg · W_ihᵀ + b_ih + h0 · W_hhᵀ + b_hh
  (each product a sum over the 128 contracted features, each bias a row broadcast over all rows), slices it into the four
  gate blocks, and applies the logistic function — spelt `1 / (1 + e^(-x))` — and `tanh` entry by entry.  Read at an
  index, the gate array is `Cell.gate` of the index's row (`gates_eq`), each quotient is the logistic function
  (`sig_i`, `sig_f`, `sig_o`), and the two results are `Cell.cellArr` and `Cell.hidArr` (`cell_eq`, `hid_eq`).
-/
import proofs.«142890_j13597866459547_1_alg».proof.Proof.Gen.ReferenceIdeal.Read
import proofs.«142890_j13597866459547_1_alg».proof.Proof.Cell

noncomputable section

open scoped BigOperators

namespace Cert.RefCell

open Cert.ReferenceIdeal Cert.ReferenceIdeal.Gen Cert.ReferenceIdeal.Read Idealize.ShloMosaic Idealize.ShloMosaic.ValueIdx Cert.Cell

/-- The gate array at `(r, q)` is the gate pre-activation of row `r` at column `q`: the transposed weight matrix read at
    `(k, q)` is the weight at `(q, k)`, and the bias broadcast over the rows is the bias at `q`. -/
theorem gates_eq (x0 : (⟨S100000x128, .f32⟩ : BufTy).Contents (Elt Ideal)) (x1 : (⟨S400000x128, .f32⟩ : BufTy).Contents (Elt Ideal))
    (x3 x4 : (⟨S512x128, .f32⟩ : BufTy).Contents (Elt Ideal)) (x5 x6 : (⟨S512, .f32⟩ : BufTy).Contents (Elt Ideal))
    (x7 x8 : (⟨S1200000, .i32⟩ : BufTy).Contents (Elt Ideal)) (j : S400000x512.Idx) :
    val_main_v20 (F := Ideal) x0 x1 x3 x4 x5 x6 x7 x8 j
      = gate (rowOf (val_main_v9 (F := Ideal) x0 x7 x8) (j 0)) (rowOf x1 (j 0)) (wOf x3) (wOf x4) (bOf x5) (bOf x6) (j 1) := by
  rw [val_main_v20_apply, val_main_v17_apply, val_main_v14_apply, val_main_v11_apply, val_main_v16_apply,
    val_main_v13_apply, val_main_v12_apply, val_main_v19_apply, val_main_v18_apply]
  simp only [val_main_v10_apply, val_main_v15_apply]
  have e1 : ∀ k : Fin 128, lidx_main_v11 j k = ix2 (j 0) k := fun k =>
    funext fun a => Fin.ext (by match a with | ⟨0, _⟩ => rfl | ⟨1, _⟩ => rfl)
  have e2 : ∀ k : Fin 128, idx_main_v10 (ridx_main_v11 j k) = ix2 (j 1) k := fun k =>
    funext fun a => Fin.ext (by match a with | ⟨0, _⟩ => rfl | ⟨1, _⟩ => rfl)
  have e3 : idx_main_v12 (idx_main_v13 j) = ix1 (j 1) :=
    funext fun a => Fin.ext (by match a with | ⟨0, _⟩ => rfl)
  have e4 : ∀ k : Fin 128, lidx_main_v16 j k = ix2 (j 0) k := fun k =>
    funext fun a => Fin.ext (by match a with | ⟨0, _⟩ => rfl | ⟨1, _⟩ => rfl)
  have e5 : ∀ k : Fin 128, idx_main_v15 (ridx_main_v16 j k) = ix2 (j 1) k := fun k =>
    funext fun a => Fin.ext (by match a with | ⟨0, _⟩ => rfl | ⟨1, _⟩ => rfl)
  have e6 : idx_main_v18 (idx_main_v19 j) = ix1 (j 1) :=
    funext fun a => Fin.ext (by match a with | ⟨0, _⟩ => rfl)
  simp only [e1, e2, e3, e4, e5, e6]
  rfl

/-- The input gate: the quotient over columns 0‥127 is the logistic function of the gate array there. -/
theorem sig_i (x0 : (⟨S100000x128, .f32⟩ : BufTy).Contents (Elt Ideal)) (x1 : (⟨S400000x128, .f32⟩ : BufTy).Contents (Elt Ideal))
    (x3 x4 : (⟨S512x128, .f32⟩ : BufTy).Contents (Elt Ideal)) (x5 x6 : (⟨S512, .f32⟩ : BufTy).Contents (Elt Ideal))
    (x7 x8 : (⟨S1200000, .i32⟩ : BufTy).Contents (Elt Ideal)) (i : S400000x128.Idx) :
    val_main_v30 (F := Ideal) x0 x1 x3 x4 x5 x6 x7 x8 i = Ideal.logistic (val_main_v21 (F := Ideal) x0 x1 x3 x4 x5 x6 x7 x8 i) := by
  rw [val_main_v30_apply, val_main_v29_apply, val_main_cst_2_apply, val_main_v28_apply, val_main_v27_apply,
    val_main_cst_1_apply, val_main_v26_apply, val_main_v25_apply]
  simp only [Ideal.ofBits_def, Ideal.hostDivf_def, Ideal.addf_def, Ideal.hostUnary_exp_def, Ideal.hostNegf_def, Ideal.negf_def]
  exact logistic_expanded _

/-- The forget gate: the quotient over columns 128‥255. -/
theorem sig_f (x0 : (⟨S100000x128, .f32⟩ : BufTy).Contents (Elt Ideal)) (x1 : (⟨S400000x128, .f32⟩ : BufTy).Contents (Elt Ideal))
    (x3 x4 : (⟨S512x128, .f32⟩ : BufTy).Contents (Elt Ideal)) (x5 x6 : (⟨S512, .f32⟩ : BufTy).Contents (Elt Ideal))
    (x7 x8 : (⟨S1200000, .i32⟩ : BufTy).Contents (Elt Ideal)) (i : S400000x128.Idx) :
    val_main_v36 (F := Ideal) x0 x1 x3 x4 x5 x6 x7 x8 i = Ideal.logistic (val_main_v22 (F := Ideal) x0 x1 x3 x4 x5 x6 x7 x8 i) := by
  rw [val_main_v36_apply, val_main_v35_apply, val_main_cst_4_apply, val_main_v34_apply, val_main_v33_apply,
    val_main_cst_3_apply, val_main_v32_apply, val_main_v31_apply]
  simp only [Ideal.ofBits_def, Ideal.hostDivf_def, Ideal.addf_def, Ideal.hostUnary_exp_def, Ideal.hostNegf_def, Ideal.negf_def]
  exact logistic_expanded _

/-- The output gate: the quotient over columns 384‥511. -/
theorem sig_o (x0 : (⟨S100000x128, .f32⟩ : BufTy).Contents (Elt Ideal)) (x1 : (⟨S400000x128, .f32⟩ : BufTy).Contents (Elt Ideal))
    (x3 x4 : (⟨S512x128, .f32⟩ : BufTy).Contents (Elt Ideal)) (x5 x6 : (⟨S512, .f32⟩ : BufTy).Contents (Elt Ideal))
    (x7 x8 : (⟨S1200000, .i32⟩ : BufTy).Contents (Elt Ideal)) (i : S400000x128.Idx) :
    val_main_v43 (F := Ideal) x0 x1 x3 x4 x5 x6 x7 x8 i = Ideal.logistic (val_main_v24 (F := Ideal) x0 x1 x3 x4 x5 x6 x7 x8 i) := by
  rw [val_main_v43_apply, val_main_v42_apply, val_main_cst_6_apply, val_main_v41_apply, val_main_v40_apply,
    val_main_cst_5_apply, val_main_v39_apply, val_main_v38_apply]
  simp only [Ideal.ofBits_def, Ideal.hostDivf_def, Ideal.addf_def, Ideal.hostUnary_exp_def, Ideal.hostNegf_def, Ideal.negf_def]
  exact logistic_expanded _

/-- The reference's second result is the new cell state of every row. -/
theorem cell_eq (x0 : (⟨S100000x128, .f32⟩ : BufTy).Contents (Elt Ideal)) (x1 x2 : (⟨S400000x128, .f32⟩ : BufTy).Contents (Elt Ideal))
    (x3 x4 : (⟨S512x128, .f32⟩ : BufTy).Contents (Elt Ideal)) (x5 x6 : (⟨S512, .f32⟩ : BufTy).Contents (Elt Ideal))
    (x7 x8 : (⟨S1200000, .i32⟩ : BufTy).Contents (Elt Ideal)) :
    val_main_v46 (F := Ideal) x0 x1 x2 x3 x4 x5 x6 x7 x8 = cellArr (val_main_v9 (F := Ideal) x0 x7 x8) x1 x2 x3 x4 x5 x6 := by
  funext i
  rw [val_main_v46_apply, val_main_v44_apply, val_main_v45_apply, sig_f, sig_i, val_main_v37_apply,
    val_main_v22_apply, val_main_v21_apply, val_main_v23_apply, gates_eq, gates_eq, gates_eq]
  simp only [Ideal.addf_def, Ideal.mulf_def, Ideal.hostUnary_tanh_def]
  have r21 : idx_main_v21 i 0 = i 0 := Fin.ext rfl
  have r22 : idx_main_v22 i 0 = i 0 := Fin.ext rfl
  have r23 : idx_main_v23 i 0 = i 0 := Fin.ext rfl
  have c21 : idx_main_v21 i 1 = gcol 0 (by omega) (i 1) := Fin.ext rfl
  have c22 : idx_main_v22 i 1 = gcol 128 (by omega) (i 1) := Fin.ext (Nat.add_comm 128 (i 1).val)
  have c23 : idx_main_v23 i 1 = gcol 256 (by omega) (i 1) := Fin.ext (Nat.add_comm 256 (i 1).val)
  rw [r21, r22, r23, c21, c22, c23]
  rfl

/-- The reference's first result is the new hidden state of every row. -/
theorem hid_eq (x0 : (⟨S100000x128, .f32⟩ : BufTy).Contents (Elt Ideal)) (x1 x2 : (⟨S400000x128, .f32⟩ : BufTy).Contents (Elt Ideal))
    (x3 x4 : (⟨S512x128, .f32⟩ : BufTy).Contents (Elt Ideal)) (x5 x6 : (⟨S512, .f32⟩ : BufTy).Contents (Elt Ideal))
    (x7 x8 : (⟨S1200000, .i32⟩ : BufTy).Contents (Elt Ideal)) :
    val_main_v48 (F := Ideal) x0 x1 x2 x3 x4 x5 x6 x7 x8 = hidArr (val_main_v9 (F := Ideal) x0 x7 x8) x1 x2 x3 x4 x5 x6 := by
  funext i
  rw [val_main_v48_apply, sig_o, val_main_v47_apply, cell_eq, val_main_v24_apply, gates_eq]
  simp only [Ideal.mulf_def, Ideal.hostUnary_tanh_def]
  have r24 : idx_main_v24 i 0 = i 0 := Fin.ext rfl
  have c24 : idx_main_v24 i 1 = gcol 384 (by omega) (i 1) := Fin.ext (Nat.add_comm 384 (i 1).val)
  rw [r24, c24]
  rfl

end Cert.RefCell

end
-- ==== Proof.Staged.lean ====
/-
  What the kernel's region finds in the arrays the host operations write before it.

  Before the region the program (i) aggregates the messages — the gather and scatter-add the reference also starts with,
  on the same arguments: the two programs write ONE term for it, and that is all this file says about it
  (`msg_staged`); (ii) transposes each [512, 128] weight matrix to [128, 512] and narrows it to a shorter float format,
  which on the extended reals changes nothing: entry `(k, q)` is the weight at `(q, k)` (`wih_staged`, `whh_staged`);
  (iii) reshapes each [512] bias to a [1, 512] row: entry `(0, q)` is the bias at `q` (`bih_staged`, `bhh_staged`).
  The previous hidden state and the old cell state are arguments the region reads as launched.
-/
import proofs.«142890_j13597866459547_1_alg».proof.Proof.Gen.KernelIdeal.Frame
import proofs.«142890_j13597866459547_1_alg».proof.Proof.Gen.ReferenceIdeal.Read
import Idealize.ShloMosaic.Lib.StableHlo.Run
import Idealize.ShloMosaic.Lib.ValueIdx
import Idealize.ShloMosaic.Lib.Pipeline.Value

noncomputable section

namespace Cert.Staged

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The aggregated messages the region reads are the term the reference writes for them, of the same three arguments. -/
theorem msg_staged (c : Dev nD) :
    (V m c main_v9 : S400000x128.Idx → Elt Ideal .f32)
      = Cert.ReferenceIdeal.Read.val_main_v9 (F := Ideal) (m ((c : Thread nD τ).loc main_arg0))
          (m ((c : Thread nD τ).loc main_arg7)) (m ((c : Thread nD τ).loc main_arg8)) := by
  dsimp only [Gen.V, Gen.hostOps0]
  after_results <;> rfl

/-- The input-to-hidden weights as staged: transposed, so `(k, q)` holds the weight at `(q, k)`. -/
theorem wih_staged (c : Dev nD) (k : Fin 128) (q : Fin 512) :
    (V m c main_v11 : S128x512.Idx → Elt Ideal .bf16) (ix2 k q)
      = (m ((c : Thread nD τ).loc main_arg3) : S512x128.Idx → Elt Ideal .f32) (ix2 q k) := by
  have e : (V m c main_v11 : S128x512.Idx → Elt Ideal .bf16)
      = truncf (F := Ideal) .bf16 (transpose S128x512 [1, 0] (m ((c : Thread nD τ).loc main_arg3) : S512x128.Idx → Elt Ideal .f32)
          transposes_S512x128_S128x512_1_0) bitsLt_bf16_f32 := by
    dsimp only [Gen.V, Gen.hostOps0]
    after_results <;> rfl
  rw [e, truncf_apply]
  exact transpose_apply [1, 0] _ transposes_S512x128_S128x512_1_0 (ix2 k q) (ix2 q k)
    (fun b => match b with | ⟨0, _⟩ => rfl | ⟨1, _⟩ => rfl)

/-- The hidden-to-hidden weights as staged, likewise. -/
theorem whh_staged (c : Dev nD) (k : Fin 128) (q : Fin 512) :
    (V m c main_v13 : S128x512.Idx → Elt Ideal .bf16) (ix2 k q)
      = (m ((c : Thread nD τ).loc main_arg4) : S512x128.Idx → Elt Ideal .f32) (ix2 q k) := by
  have e : (V m c main_v13 : S128x512.Idx → Elt Ideal .bf16)
      = truncf (F := Ideal) .bf16 (transpose S128x512 [1, 0] (m ((c : Thread nD τ).loc main_arg4) : S512x128.Idx → Elt Ideal .f32)
          transposes_S512x128_S128x512_1_0) bitsLt_bf16_f32 := by
    dsimp only [Gen.V, Gen.hostOps0]
    after_results <;> rfl
  rw [e, truncf_apply]
  exact transpose_apply [1, 0] _ transposes_S512x128_S128x512_1_0 (ix2 k q) (ix2 q k)
    (fun b => match b with | ⟨0, _⟩ => rfl | ⟨1, _⟩ => rfl)

/-- The input bias as staged: a [1, 512] row whose entry `(0, q)` is the bias at `q`. -/
theorem bih_staged (c : Dev nD) (q : Fin 512) :
    (V m c main_v14 : S1x512.Idx → Elt Ideal .f32) (ix2 (0 : Fin 1) q)
      = (m ((c : Thread nD τ).loc main_arg5) : S512.Idx → Elt Ideal .f32) (ix1 q) := by
  have e : (V m c main_v14 : S1x512.Idx → Elt Ideal .f32)
      = shapeCast S1x512 (m ((c : Thread nD τ).loc main_arg5) : S512.Idx → Elt Ideal .f32) shapeCasts_S512_S1x512 := by
    dsimp only [Gen.V, Gen.hostOps0]
    after_results <;> rfl
  rw [e]
  refine (shapeCast_addUnit_apply ![512] _ shapeCasts_S512_S1x512 (ix2 (0 : Fin 1) q)).trans ?_
  exact congrArg _ (funext fun a => by match a with | ⟨0, _⟩ => rfl)

/-- The hidden bias as staged, likewise. -/
theorem bhh_staged (c : Dev nD) (q : Fin 512) :
    (V m c main_v15 : S1x512.Idx → Elt Ideal .f32) (ix2 (0 : Fin 1) q)
      = (m ((c : Thread nD τ).loc main_arg6) : S512.Idx → Elt Ideal .f32) (ix1 q) := by
  have e : (V m c main_v15 : S1x512.Idx → Elt Ideal .f32)
      = shapeCast S1x512 (m ((c : Thread nD τ).loc main_arg6) : S512.Idx → Elt Ideal .f32) shapeCasts_S512_S1x512 := by
    dsimp only [Gen.V, Gen.hostOps0]
    after_results <;> rfl
  rw [e]
  refine (shapeCast_addUnit_apply ![512] _ shapeCasts_S512_S1x512 (ix2 (0 : Fin 1) q)).trans ?_
  exact congrArg _ (funext fun a => by match a with | ⟨0, _⟩ => rfl)

end Cert.Staged

end
-- ==== Proof.LibBlock.lean ====
/-
  Blocks read at an index.

  * `hz`: the zero offsets of a rank-2 rectangle, spelt as the constant function;
  * `matmul_zero_ix2`: a plain matrix product `[M, K] × [K, N]` accumulated into the zero splat, read at `(p, q)`, is
    the sum over the contracted coordinate `k : Fin K` of `lhs (p, k) * rhs (k, q)` (any `K`);
  * `lhsIdx_val_row`, `rhsIdx_val_col`: the non-contracted coordinates of the two operand indices.
  (A `[1, n]` row broadcast over `m` rows, read at `(p, c)`, is the library's `ValueIdx.broadcastTo_1b_ab_apply`.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibBlock

open Idealize.ShloMosaic Idealize.ShloMosaic.ValueIdx

/-- The zero offsets of a rank-2 rectangle are the constant function `0`. -/
theorem hz : (![0, 0] : Fin 2 → Nat) = fun _ => 0 := funext fun a => by fin_cases a <;> rfl

section Matmul
variable {M K N : Nat} (D : DotDims ⟨2, ![M, K]⟩ ⟨2, ![K, N]⟩ ⟨2, ![M, N]⟩)

/-- With no batch axis and the left operand's rows its one free axis, the left operand index has the result's row. -/
theorem lhsIdx_val_row (hlb : D.lhsBatch = []) (hln : D.lhsNonContracting = [0])
    (j : (⟨2, ![M, N]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- With no batch axis, one free axis on the left and the right operand's columns its one free axis, the right operand
    index has the result's column. -/
theorem rhsIdx_val_col (hlb : D.lhsBatch = []) (hln : D.lhsNonContracting = [0]) (hrb : D.rhsBatch = [])
    (hrn : D.rhsNonContracting = [1])
    (j : (⟨2, ![M, N]⟩ : Shape).Idx) (k : D.contr.Idx) : (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- A plain matrix product `[M, K] × [K, N]` into the zero accumulator, read at `(p, q)`:
    `∑ₖ lhs (p, k) * rhs (k, q)`, the sum over the contracted coordinate. -/
theorem matmul_zero_ix2 (hlc : D.lhsContracting = [1]) (hrc : D.rhsContracting = [0])
    (hlb : D.lhsBatch = []) (hln : D.lhsNonContracting = [0]) (hrb : D.rhsBatch = []) (hrn : D.rhsNonContracting = [1])
    {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.matmul_constant_zero_apply D prec lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_val_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhsIdx_val_col D hlb hln hrb hrn _ _)
  rw [el, er]

end Matmul

end Cert.LibBlock

end
-- ==== Proof.BlockCell.lean ====
/-
  The kernel body at one grid point computes the LSTM step of `Cell.lean` on its block of 3200 rows.

  The body loads a [3200, 128] block of messages, of the previous hidden state and of the old cell state, the two
  weight matrices already transposed to [128, 512], and the two biases as [1, 512] rows.  Its gate array is
      msg · Wi + bi + h · Wh + bh        ([3200, 512]; each product accumulated from zero),
  where narrowing a block to a shorter float format changes nothing on the extended reals.  Read at `(p, q)` it is
  `Cell.gate` of row `p` of the two row blocks, with the weight of gate column `q` and feature `k` found at `(k, q)` of the
  transposed block and the bias of column `q` at `(0, q)` of the bias row (`kgate`).  The four gate blocks are column
  ranges of that array, so what the body stores into the two output blocks is, entry by entry, `Cell.hid` and `Cell.cell`
  of the block's row (`stored_hid`, `stored_cell`).
-/
import proofs.«142890_j13597866459547_1_alg».proof.Proof.Gen.KernelIdeal.Value
import proofs.«142890_j13597866459547_1_alg».proof.Proof.Cell
import proofs.«142890_j13597866459547_1_alg».proof.Proof.LibBlock
import Idealize.ShloMosaic.Lib.ValueIdx
import Idealize.ShloMosaic.Lib.ValueLayout
import Idealize.ShloMosaic.Lib.Pipeline.Value

noncomputable section

open scoped BigOperators

namespace Cert.BlockCell

open Cert.KernelIdeal Cert.KernelIdeal.Gen Idealize.ShloMosaic Idealize.ShloMosaic.ValueIdx Cert.Cell

/-- A [128, 512] block of transposed weights by gate column and feature. -/
abbrev wT (w : Vec Ideal S128x512 .bf16) : Fin 512 → Fin 128 → EReal := fun q k => w (ix2 k q)
/-- A [1, 512] bias row by gate column. -/
abbrev bRow (b : Vec Ideal S1x512 .f32) : Fin 512 → EReal := fun q => b (ix2 (0 : Fin 1) q)

/-- The body's gate array at `(p, q)`: two sums over the 128 contracted features and two bias entries, added in the
    order the body adds them. -/
theorem kgate (P0 P1 : Vec Ideal S3200x128 .f32) (P2 P3 : Vec Ideal S128x512 .bf16) (P4 P5 : Vec Ideal S1x512 .f32)
    (p : Fin 3200) (q : Fin 512) :
    k0_pay1 (F := Ideal) P0 P1 P2 P3 P4 P5 (ix2 p q) = gate (rowOf P0 p) (rowOf P1 p) (wT P2) (wT P3) (bRow P4) (bRow P5) q := by
  unfold k0_pay1
  simp only [shapeCast_self]
  rw [addf_apply, addf_apply, addf_apply, broadcastTo_1b_ab_apply, broadcastTo_1b_ab_apply]
  have mm : ∀ (a : FVec Ideal S3200x128 .bf16) (b : FVec Ideal S128x512 .bf16),
      matmul dot_S3200x128_S128x512_S3200x512_1_0_0_1_n_n none a b (constant (F := Ideal) S3200x512 .f32 0x00000000#32) (ix2 p q)
        = ∑ k : Fin 128, a (ix2 p k) * b (ix2 k q) := fun a b =>
    Cert.LibBlock.matmul_zero_ix2 dot_S3200x128_S128x512_S3200x512_1_0_0_1_n_n rfl rfl rfl rfl rfl rfl none a b p q
  rw [mm, mm]
  rfl

/-- The new cell state of the block: the forget gate's columns are 128‥255 of the gate array, the input gate's 0‥127,
    the candidate's 256‥383. -/
theorem block_cell (P0 P1 : Vec Ideal S3200x128 .f32) (P2 P3 : Vec Ideal S128x512 .bf16) (P4 P5 : Vec Ideal S1x512 .f32) (P6 : Vec Ideal S3200x128 .f32) (p : Fin 3200) (j : Fin 128) :
    Value.E8 (F := Ideal) P0 P1 P2 P3 P4 P5 P6 (ix2 p j)
      = cell (rowOf P0 p) (rowOf P1 p) (P6 (ix2 p j)) (wT P2) (wT P3) (bRow P4) (bRow P5) j := by
  have e0 : Value.ix8_0 (ix2 p j) = ix2 p (gcol 128 (by omega) j) :=
    funext fun a => Fin.ext (by match a with | ⟨0, _⟩ => rfl | ⟨1, _⟩ => rfl)
  have e1 : Value.ix8_1 (ix2 p j) = ix2 p j :=
    funext fun a => Fin.ext (by match a with | ⟨0, _⟩ => rfl | ⟨1, _⟩ => rfl)
  have e2 : Value.ix8_2 (ix2 p j) = ix2 p (gcol 0 (by omega) j) :=
    funext fun a => Fin.ext (by match a with | ⟨0, _⟩ => rfl | ⟨1, _⟩ => rfl)
  have e3 : Value.ix8_3 (ix2 p j) = ix2 p (gcol 256 (by omega) j) :=
    funext fun a => Fin.ext (by match a with | ⟨0, _⟩ => rfl | ⟨1, _⟩ => rfl)
  show FloatOps.addf (FloatOps.mulf (FloatOps.logistic (k0_pay1 P0 P1 P2 P3 P4 P5 (Value.ix8_0 (ix2 p j)))) (P6 (Value.ix8_1 (ix2 p j))))
      (FloatOps.mulf (FloatOps.logistic (k0_pay1 P0 P1 P2 P3 P4 P5 (Value.ix8_2 (ix2 p j)))) (FloatOps.tanh (k0_pay1 P0 P1 P2 P3 P4 P5 (Value.ix8_3 (ix2 p j))))) = _
  rw [e0, e1, e2, e3, kgate, kgate, kgate]
  rfl

/-- The new hidden state of the block: the output gate's columns are 384‥511. -/
theorem block_hid (P0 P1 : Vec Ideal S3200x128 .f32) (P2 P3 : Vec Ideal S128x512 .bf16) (P4 P5 : Vec Ideal S1x512 .f32) (P6 : Vec Ideal S3200x128 .f32) (p : Fin 3200) (j : Fin 128) :
    Value.E7 (F := Ideal) P0 P1 P2 P3 P4 P5 P6 (ix2 p j)
      = hid (rowOf P0 p) (rowOf P1 p) (P6 (ix2 p j)) (wT P2) (wT P3) (bRow P4) (bRow P5) j := by
  have e0 : Value.ix7_0 (ix2 p j) = ix2 p (gcol 384 (by omega) j) :=
    funext fun a => Fin.ext (by match a with | ⟨0, _⟩ => rfl | ⟨1, _⟩ => rfl)
  have e1 : Value.ix7_1 (ix2 p j) = ix2 p (gcol 128 (by omega) j) :=
    funext fun a => Fin.ext (by match a with | ⟨0, _⟩ => rfl | ⟨1, _⟩ => rfl)
  have e2 : Value.ix7_2 (ix2 p j) = ix2 p j :=
    funext fun a => Fin.ext (by match a with | ⟨0, _⟩ => rfl | ⟨1, _⟩ => rfl)
  have e3 : Value.ix7_3 (ix2 p j) = ix2 p (gcol 0 (by omega) j) :=
    funext fun a => Fin.ext (by match a with | ⟨0, _⟩ => rfl | ⟨1, _⟩ => rfl)
  have e4 : Value.ix7_4 (ix2 p j) = ix2 p (gcol 256 (by omega) j) :=
    funext fun a => Fin.ext (by match a with | ⟨0, _⟩ => rfl | ⟨1, _⟩ => rfl)
  show FloatOps.mulf (FloatOps.logistic (k0_pay1 P0 P1 P2 P3 P4 P5 (Value.ix7_0 (ix2 p j))))
      (FloatOps.tanh (FloatOps.addf (FloatOps.mulf (FloatOps.logistic (k0_pay1 P0 P1 P2 P3 P4 P5 (Value.ix7_1 (ix2 p j)))) (P6 (Value.ix7_2 (ix2 p j))))
        (FloatOps.mulf (FloatOps.logistic (k0_pay1 P0 P1 P2 P3 P4 P5 (Value.ix7_3 (ix2 p j)))) (FloatOps.tanh (k0_pay1 P0 P1 P2 P3 P4 P5 (Value.ix7_4 (ix2 p j))))))) = _
  rw [e0, e1, e2, e3, e4, kgate, kgate, kgate, kgate]
  rfl

/-- What the body leaves in the cell-state output block, from the seven input blocks in the order the kernel is called with them
    (messages, hidden state, cell state, the two weight blocks, the two bias rows). -/
theorem stored_cell (x0 x1 x2 : Vec Ideal S3200x128 .f32) (x3 x4 : Vec Ideal S128x512 .bf16) (x5 x6 : Vec Ideal S1x512 .f32) (p : Fin 3200) (j : Fin 128) :
    out0_8 (F := Ideal) x0 x1 x2 x3 x4 x5 x6 (ix2 p j)
      = cell (rowOf x0 p) (rowOf x1 p) (x2 (ix2 p j)) (wT x3) (wT x4) (bRow x5) (bRow x6) j := by
  unfold out0_8
  rw [Value.canon8_eq]
  simp only [View.ld_unit_zero (S := S3200x128) Cert.LibBlock.hz, View.ld_unit_zero (S := S128x512) Cert.LibBlock.hz,
    View.ld_unit_zero (S := S1x512) Cert.LibBlock.hz]
  exact block_cell x0 x1 x3 x4 x5 x6 x2 p j

/-- What the body leaves in the hidden-state output block. -/
theorem stored_hid (x0 x1 x2 : Vec Ideal S3200x128 .f32) (x3 x4 : Vec Ideal S128x512 .bf16) (x5 x6 : Vec Ideal S1x512 .f32) (p : Fin 3200) (j : Fin 128) :
    out0_7 (F := Ideal) x0 x1 x2 x3 x4 x5 x6 (ix2 p j)
      = hid (rowOf x0 p) (rowOf x1 p) (x2 (ix2 p j)) (wT x3) (wT x4) (bRow x5) (bRow x6) j := by
  unfold out0_7
  rw [Value.canon7_eq]
  simp only [View.ld_unit_zero (S := S3200x128) Cert.LibBlock.hz, View.ld_unit_zero (S := S128x512) Cert.LibBlock.hz,
    View.ld_unit_zero (S := S1x512) Cert.LibBlock.hz]
  exact block_hid x0 x1 x3 x4 x5 x6 x2 p j

end Cert.BlockCell

end
-- ==== Proof.Tiles.lean ====
/-
  How the 125 grid points tile the arrays.

  At point `t` the three row windows (messages, hidden state, cell state) and the two output windows hold rows
  `3200·t … 3200·t + 3199` of their [400000, 128] arrays, all 128 columns; the weight and bias windows hold their whole
  arrays at every point (`tiles`, decided over the grid).  So row `p` of a row block at point `t` is row `3200·t + p` of
  the array, and a weight or bias block is the array itself — stated for ANY contents `A` of the array, since a block
  read only moves indices.
-/
import proofs.«142890_j13597866459547_1_alg».proof.Proof.Gen.KernelIdeal.Value
import Idealize.ShloMosaic.Lib.ValueIdx

noncomputable section

namespace Cert.Tiles

open Cert.KernelIdeal Cert.KernelIdeal.Gen Idealize.ShloMosaic Idealize.ShloMosaic.TcCoe Idealize.SL.Sem
open Idealize.ShloMosaic.ValueIdx
open Idealize.ShloMosaic.Pipeline (Dat)

/-- The block index of every window at every grid point: `(t, 0)` for the three row windows and the two outputs,
    `(0, 0)` for the weights and the biases. -/
theorem tiles : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- Row `p` of window 0's block at point `t` is row `3200·t + p` of the window's array, whatever the array holds. -/
theorem read_rows0 (c : Dev nD) (A : Buf (Elt Ideal) ((c : Thread nD τ).loc (Pipeline.arrRef spec0 0))) (t : Fin cfg0.N) (p : Fin 3200)
    (k : Fin 128) (r : Fin 400000) (hr : r.val = t.val * 3200 + p.val) :
    (((cfg0.win 0).blk t).view.read (Elt Ideal) A : Vec Ideal S3200x128 .f32) (ix2 p k)
      = (A : S400000x128.Idx → Elt Ideal .f32) (ix2 r k) := by
  obtain ⟨h00, h01, h10, h11, h20, h21, -⟩ := tiles t
  show (A : S400000x128.Idx → Elt Ideal .f32) (((cfg0.win 0).blk t).view.emb (ix2 p k)) = A (ix2 r k)
  refine congrArg (A : S400000x128.Idx → Elt Ideal .f32) (funext fun a => Fin.ext ?_)
  match a with
  | ⟨0, _⟩ => show win0_0.index t (0 : Fin 2) * 3200 + 1 * p.val = r.val; rw [h00, hr]; omega
  | ⟨1, _⟩ => show win0_0.index t (1 : Fin 2) * 128 + 1 * k.val = k.val; rw [h01]; omega

/-- Row `p` of window 1's block at point `t` is row `3200·t + p` of the window's array, whatever the array holds. -/
theorem read_rows1 (c : Dev nD) (A : Buf (Elt Ideal) ((c : Thread nD τ).loc (Pipeline.arrRef spec0 1))) (t : Fin cfg0.N) (p : Fin 3200)
    (k : Fin 128) (r : Fin 400000) (hr : r.val = t.val * 3200 + p.val) :
    (((cfg0.win 1).blk t).view.read (Elt Ideal) A : Vec Ideal S3200x128 .f32) (ix2 p k)
      = (A : S400000x128.Idx → Elt Ideal .f32) (ix2 r k) := by
  obtain ⟨h00, h01, h10, h11, h20, h21, -⟩ := tiles t
  show (A : S400000x128.Idx → Elt Ideal .f32) (((cfg0.win 1).blk t).view.emb (ix2 p k)) = A (ix2 r k)
  refine congrArg (A : S400000x128.Idx → Elt Ideal .f32) (funext fun a => Fin.ext ?_)
  match a with
  | ⟨0, _⟩ => show win0_1.index t (0 : Fin 2) * 3200 + 1 * p.val = r.val; rw [h10, hr]; omega
  | ⟨1, _⟩ => show win0_1.index t (1 : Fin 2) * 128 + 1 * k.val = k.val; rw [h11]; omega

/-- Row `p` of window 2's block at point `t` is row `3200·t + p` of the window's array, whatever the array holds. -/
theorem read_rows2 (c : Dev nD) (A : Buf (Elt Ideal) ((c : Thread nD τ).loc (Pipeline.arrRef spec0 2))) (t : Fin cfg0.N) (p : Fin 3200)
    (k : Fin 128) (r : Fin 400000) (hr : r.val = t.val * 3200 + p.val) :
    (((cfg0.win 2).blk t).view.read (Elt Ideal) A : Vec Ideal S3200x128 .f32) (ix2 p k)
      = (A : S400000x128.Idx → Elt Ideal .f32) (ix2 r k) := by
  obtain ⟨h00, h01, h10, h11, h20, h21, -⟩ := tiles t
  show (A : S400000x128.Idx → Elt Ideal .f32) (((cfg0.win 2).blk t).view.emb (ix2 p k)) = A (ix2 r k)
  refine congrArg (A : S400000x128.Idx → Elt Ideal .f32) (funext fun a => Fin.ext ?_)
  match a with
  | ⟨0, _⟩ => show win0_2.index t (0 : Fin 2) * 3200 + 1 * p.val = r.val; rw [h20, hr]; omega
  | ⟨1, _⟩ => show win0_2.index t (1 : Fin 2) * 128 + 1 * k.val = k.val; rw [h21]; omega

/-- Window 3's block is its whole [128, 512] array at every point. -/
theorem read_whole3 (c : Dev nD) (A : Buf (Elt Ideal) ((c : Thread nD τ).loc (Pipeline.arrRef spec0 3))) (t : Fin cfg0.N) (k : Fin 128)
    (q : Fin 512) :
    (((cfg0.win 3).blk t).view.read (Elt Ideal) A : Vec Ideal S128x512 .bf16) (ix2 k q)
      = (A : S128x512.Idx → Elt Ideal .bf16) (ix2 k q) := by
  obtain ⟨-, -, -, -, -, -, h30, h31, h40, h41, -⟩ := tiles t
  show (A : S128x512.Idx → Elt Ideal .bf16) (((cfg0.win 3).blk t).view.emb (ix2 k q)) = A (ix2 k q)
  refine congrArg (A : S128x512.Idx → Elt Ideal .bf16) (funext fun a => Fin.ext ?_)
  match a with
  | ⟨0, _⟩ => show win0_3.index t (0 : Fin 2) * 128 + 1 * k.val = k.val; rw [h30]; omega
  | ⟨1, _⟩ => show win0_3.index t (1 : Fin 2) * 512 + 1 * q.val = q.val; rw [h31]; omega

/-- Window 4's block is its whole [128, 512] array at every point. -/
theorem read_whole4 (c : Dev nD) (A : Buf (Elt Ideal) ((c : Thread nD τ).loc (Pipeline.arrRef spec0 4))) (t : Fin cfg0.N) (k : Fin 128)
    (q : Fin 512) :
    (((cfg0.win 4).blk t).view.read (Elt Ideal) A : Vec Ideal S128x512 .bf16) (ix2 k q)
      = (A : S128x512.Idx → Elt Ideal .bf16) (ix2 k q) := by
  obtain ⟨-, -, -, -, -, -, h30, h31, h40, h41, -⟩ := tiles t
  show (A : S128x512.Idx → Elt Ideal .bf16) (((cfg0.win 4).blk t).view.emb (ix2 k q)) = A (ix2 k q)
  refine congrArg (A : S128x512.Idx → Elt Ideal .bf16) (funext fun a => Fin.ext ?_)
  match a with
  | ⟨0, _⟩ => show win0_4.index t (0 : Fin 2) * 128 + 1 * k.val = k.val; rw [h40]; omega
  | ⟨1, _⟩ => show win0_4.index t (1 : Fin 2) * 512 + 1 * q.val = q.val; rw [h41]; omega

/-- Window 5's block is its whole [1, 512] row at every point. -/
theorem read_whole5 (c : Dev nD) (A : Buf (Elt Ideal) ((c : Thread nD τ).loc (Pipeline.arrRef spec0 5))) (t : Fin cfg0.N) (q : Fin 512) :
    (((cfg0.win 5).blk t).view.read (Elt Ideal) A : Vec Ideal S1x512 .f32) (ix2 (0 : Fin 1) q)
      = (A : S1x512.Idx → Elt Ideal .f32) (ix2 (0 : Fin 1) q) := by
  obtain ⟨-, -, -, -, -, -, -, -, -, -, h50, h51, h60, h61, -⟩ := tiles t
  show (A : S1x512.Idx → Elt Ideal .f32) (((cfg0.win 5).blk t).view.emb (ix2 (0 : Fin 1) q)) = A (ix2 (0 : Fin 1) q)
  refine congrArg (A : S1x512.Idx → Elt Ideal .f32) (funext fun a => Fin.ext ?_)
  match a with
  | ⟨0, _⟩ => show win0_5.index t (0 : Fin 2) * 1 + 1 * 0 = 0; rw [h50]
  | ⟨1, _⟩ => show win0_5.index t (1 : Fin 2) * 512 + 1 * q.val = q.val; rw [h51]; omega

/-- Window 6's block is its whole [1, 512] row at every point. -/
theorem read_whole6 (c : Dev nD) (A : Buf (Elt Ideal) ((c : Thread nD τ).loc (Pipeline.arrRef spec0 6))) (t : Fin cfg0.N) (q : Fin 512) :
    (((cfg0.win 6).blk t).view.read (Elt Ideal) A : Vec Ideal S1x512 .f32) (ix2 (0 : Fin 1) q)
      = (A : S1x512.Idx → Elt Ideal .f32) (ix2 (0 : Fin 1) q) := by
  obtain ⟨-, -, -, -, -, -, -, -, -, -, h50, h51, h60, h61, -⟩ := tiles t
  show (A : S1x512.Idx → Elt Ideal .f32) (((cfg0.win 6).blk t).view.emb (ix2 (0 : Fin 1) q)) = A (ix2 (0 : Fin 1) q)
  refine congrArg (A : S1x512.Idx → Elt Ideal .f32) (funext fun a => Fin.ext ?_)
  match a with
  | ⟨0, _⟩ => show win0_6.index t (0 : Fin 2) * 1 + 1 * 0 = 0; rw [h60]
  | ⟨1, _⟩ => show win0_6.index t (1 : Fin 2) * 512 + 1 * q.val = q.val; rw [h61]; omega

end Cert.Tiles

end
-- ==== Proof.Wrote.lean ====
/-
  What one grid point writes back, for any contents of the seven input arrays.

  Let the arrays the row windows read hold `msg`, `h`, `c`, the weight windows' arrays hold the two weight matrices
  transposed, and the bias windows' arrays hold the two biases as rows.  An LSTM step treats each row by itself, the body
  computes it on the point's 3200 rows (`BlockCell.lean`), those rows are rows `3200·t … 3200·t + 3199` of the arrays and the
  weight and bias blocks are the whole arrays (`Tiles.lean`).  So what point `t` writes back is block `t` of
  `Cell.cellArr` / `Cell.hidArr` of `msg`, `h`, `c`, the weights and the biases.  The array contents are variables here: the
  statement is about index arithmetic and the body only.
-/
import proofs.«142890_j13597866459547_1_alg».proof.Proof.Gen.KernelIdeal.Value
import proofs.«142890_j13597866459547_1_alg».proof.Proof.Cell
import proofs.«142890_j13597866459547_1_alg».proof.Proof.BlockCell
import proofs.«142890_j13597866459547_1_alg».proof.Proof.Tiles

noncomputable section

namespace Cert.Wrote

open Cert.KernelIdeal Cert.KernelIdeal.Gen Idealize.ShloMosaic Idealize.ShloMosaic.TcCoe Idealize.SL.Sem
open Idealize.ShloMosaic.ValueIdx Cert.Cell Cert.BlockCell Cert.Tiles
open Idealize.ShloMosaic.Pipeline (Dat)

/-- The cell-state block point `t` writes back is block `t` of the new cell state of every row. -/
theorem wrote_cell_of (c : Dev nD) (t : Fin cfg0.N)
    (A0 : Buf (Elt Ideal) ((c : Thread nD τ).loc (Pipeline.arrRef spec0 0))) (A1 : Buf (Elt Ideal) ((c : Thread nD τ).loc (Pipeline.arrRef spec0 1)))
    (A2 : Buf (Elt Ideal) ((c : Thread nD τ).loc (Pipeline.arrRef spec0 2))) (A3 : Buf (Elt Ideal) ((c : Thread nD τ).loc (Pipeline.arrRef spec0 3)))
    (A4 : Buf (Elt Ideal) ((c : Thread nD τ).loc (Pipeline.arrRef spec0 4))) (A5 : Buf (Elt Ideal) ((c : Thread nD τ).loc (Pipeline.arrRef spec0 5)))
    (A6 : Buf (Elt Ideal) ((c : Thread nD τ).loc (Pipeline.arrRef spec0 6)))
    (msg h cc : Rows.Idx → EReal) (wi wh : Wts.Idx → EReal) (bi bh : Bias.Idx → EReal)
    (e0 : (A0 : S400000x128.Idx → Elt Ideal .f32) = msg) (e1 : (A1 : S400000x128.Idx → Elt Ideal .f32) = h)
    (e2 : (A2 : S400000x128.Idx → Elt Ideal .f32) = cc)
    (e3 : ∀ (k : Fin 128) (q : Fin 512), (A3 : S128x512.Idx → Elt Ideal .bf16) (ix2 k q) = wi (ix2 q k))
    (e4 : ∀ (k : Fin 128) (q : Fin 512), (A4 : S128x512.Idx → Elt Ideal .bf16) (ix2 k q) = wh (ix2 q k))
    (e5 : ∀ q : Fin 512, (A5 : S1x512.Idx → Elt Ideal .f32) (ix2 (0 : Fin 1) q) = bi (ix1 q))
    (e6 : ∀ q : Fin 512, (A6 : S1x512.Idx → Elt Ideal .f32) (ix2 (0 : Fin 1) q) = bh (ix1 q)) :
    (cfg0.win 8).cut (grid0.coords t) (out0_8 (F := Ideal) (((cfg0.win 0).blk t).view.read (Elt Ideal) A0) (((cfg0.win 1).blk t).view.read (Elt Ideal) A1)
        (((cfg0.win 2).blk t).view.read (Elt Ideal) A2) (((cfg0.win 3).blk t).view.read (Elt Ideal) A3)
        (((cfg0.win 4).blk t).view.read (Elt Ideal) A4) (((cfg0.win 5).blk t).view.read (Elt Ideal) A5)
        (((cfg0.win 6).blk t).view.read (Elt Ideal) A6))
      = ((cfg0.win 8).blk t).view.read (Elt Ideal) (cellArr msg h cc wi wh bi bh) := by
  have ht : t.val < 125 := (N_0 ▸ t.isLt : t.val < 125)
  funext y
  obtain ⟨p, j, rfl⟩ : ∃ (p : Fin 3200) (j : Fin 128), y = ix2 p j := ⟨y 0, y 1, eq_ix2 y⟩
  have hp : p.val < 3200 := p.isLt
  have hr : t.val * 3200 + p.val < 400000 := by omega
  have hemb : ((cfg0.win 8).blk t).view.emb (ix2 p j) = ix2 (⟨t.val * 3200 + p.val, hr⟩ : Fin 400000) j := by
    obtain ⟨-, -, -, -, -, -, -, -, -, -, -, -, -, -, h70, h71, h80, h81⟩ := tiles t
    funext a; apply Fin.ext
    match a with
    | ⟨0, _⟩ => show win0_8.index t (0 : Fin 2) * 3200 + 1 * p.val = t.val * 3200 + p.val; rw [h80]; omega
    | ⟨1, _⟩ => show win0_8.index t (1 : Fin 2) * 128 + 1 * j.val = j.val; rw [h81]; omega
  show out0_8 (F := Ideal) (((cfg0.win 0).blk t).view.read (Elt Ideal) A0 : Vec Ideal S3200x128 .f32) (((cfg0.win 1).blk t).view.read (Elt Ideal) A1 : Vec Ideal S3200x128 .f32)
    (((cfg0.win 2).blk t).view.read (Elt Ideal) A2 : Vec Ideal S3200x128 .f32) (((cfg0.win 3).blk t).view.read (Elt Ideal) A3 : Vec Ideal S128x512 .bf16)
    (((cfg0.win 4).blk t).view.read (Elt Ideal) A4 : Vec Ideal S128x512 .bf16) (((cfg0.win 5).blk t).view.read (Elt Ideal) A5 : Vec Ideal S1x512 .f32)
    (((cfg0.win 6).blk t).view.read (Elt Ideal) A6 : Vec Ideal S1x512 .f32) (ix2 p j)
      = cellArr msg h cc wi wh bi bh (((cfg0.win 8).blk t).view.emb (ix2 p j))
  rw [hemb, cellArr_apply]
  refine (stored_cell (((cfg0.win 0).blk t).view.read (Elt Ideal) A0 : Vec Ideal S3200x128 .f32) (((cfg0.win 1).blk t).view.read (Elt Ideal) A1 : Vec Ideal S3200x128 .f32)
    (((cfg0.win 2).blk t).view.read (Elt Ideal) A2 : Vec Ideal S3200x128 .f32) (((cfg0.win 3).blk t).view.read (Elt Ideal) A3 : Vec Ideal S128x512 .bf16)
    (((cfg0.win 4).blk t).view.read (Elt Ideal) A4 : Vec Ideal S128x512 .bf16) (((cfg0.win 5).blk t).view.read (Elt Ideal) A5 : Vec Ideal S1x512 .f32)
    (((cfg0.win 6).blk t).view.read (Elt Ideal) A6 : Vec Ideal S1x512 .f32) p j).trans ?_
  exact cell_congr
    (funext fun k => (read_rows0 c A0 t p k ⟨t.val * 3200 + p.val, hr⟩ rfl).trans (congrFun e0 _))
    (funext fun k => (read_rows1 c A1 t p k ⟨t.val * 3200 + p.val, hr⟩ rfl).trans (congrFun e1 _))
    ((read_rows2 c A2 t p j ⟨t.val * 3200 + p.val, hr⟩ rfl).trans (congrFun e2 _))
    (funext fun q => funext fun k => (read_whole3 c A3 t k q).trans (e3 k q))
    (funext fun q => funext fun k => (read_whole4 c A4 t k q).trans (e4 k q))
    (funext fun q => (read_whole5 c A5 t q).trans (e5 q))
    (funext fun q => (read_whole6 c A6 t q).trans (e6 q)) j

/-- The hidden-state block point `t` writes back is block `t` of the new hidden state of every row. -/
theorem wrote_hid_of (c : Dev nD) (t : Fin cfg0.N)
    (A0 : Buf (Elt Ideal) ((c : Thread nD τ).loc (Pipeline.arrRef spec0 0))) (A1 : Buf (Elt Ideal) ((c : Thread nD τ).loc (Pipeline.arrRef spec0 1)))
    (A2 : Buf (Elt Ideal) ((c : Thread nD τ).loc (Pipeline.arrRef spec0 2))) (A3 : Buf (Elt Ideal) ((c : Thread nD τ).loc (Pipeline.arrRef spec0 3)))
    (A4 : Buf (Elt Ideal) ((c : Thread nD τ).loc (Pipeline.arrRef spec0 4))) (A5 : Buf (Elt Ideal) ((c : Thread nD τ).loc (Pipeline.arrRef spec0 5)))
    (A6 : Buf (Elt Ideal) ((c : Thread nD τ).loc (Pipeline.arrRef spec0 6)))
    (msg h cc : Rows.Idx → EReal) (wi wh : Wts.Idx → EReal) (bi bh : Bias.Idx → EReal)
    (e0 : (A0 : S400000x128.Idx → Elt Ideal .f32) = msg) (e1 : (A1 : S400000x128.Idx → Elt Ideal .f32) = h)
    (e2 : (A2 : S400000x128.Idx → Elt Ideal .f32) = cc)
    (e3 : ∀ (k : Fin 128) (q : Fin 512), (A3 : S128x512.Idx → Elt Ideal .bf16) (ix2 k q) = wi (ix2 q k))
    (e4 : ∀ (k : Fin 128) (q : Fin 512), (A4 : S128x512.Idx → Elt Ideal .bf16) (ix2 k q) = wh (ix2 q k))
    (e5 : ∀ q : Fin 512, (A5 : S1x512.Idx → Elt Ideal .f32) (ix2 (0 : Fin 1) q) = bi (ix1 q))
    (e6 : ∀ q : Fin 512, (A6 : S1x512.Idx → Elt Ideal .f32) (ix2 (0 : Fin 1) q) = bh (ix1 q)) :
    (cfg0.win 7).cut (grid0.coords t) (out0_7 (F := Ideal) (((cfg0.win 0).blk t).view.read (Elt Ideal) A0) (((cfg0.win 1).blk t).view.read (Elt Ideal) A1)
        (((cfg0.win 2).blk t).view.read (Elt Ideal) A2) (((cfg0.win 3).blk t).view.read (Elt Ideal) A3)
        (((cfg0.win 4).blk t).view.read (Elt Ideal) A4) (((cfg0.win 5).blk t).view.read (Elt Ideal) A5)
        (((cfg0.win 6).blk t).view.read (Elt Ideal) A6))
      = ((cfg0.win 7).blk t).view.read (Elt Ideal) (hidArr msg h cc wi wh bi bh) := by
  have ht : t.val < 125 := (N_0 ▸ t.isLt : t.val < 125)
  funext y
  obtain ⟨p, j, rfl⟩ : ∃ (p : Fin 3200) (j : Fin 128), y = ix2 p j := ⟨y 0, y 1, eq_ix2 y⟩
  have hp : p.val < 3200 := p.isLt
  have hr : t.val * 3200 + p.val < 400000 := by omega
  have hemb : ((cfg0.win 7).blk t).view.emb (ix2 p j) = ix2 (⟨t.val * 3200 + p.val, hr⟩ : Fin 400000) j := by
    obtain ⟨-, -, -, -, -, -, -, -, -, -, -, -, -, -, h70, h71, h80, h81⟩ := tiles t
    funext a; apply Fin.ext
    match a with
    | ⟨0, _⟩ => show win0_7.index t (0 : Fin 2) * 3200 + 1 * p.val = t.val * 3200 + p.val; rw [h70]; omega
    | ⟨1, _⟩ => show win0_7.index t (1 : Fin 2) * 128 + 1 * j.val = j.val; rw [h71]; omega
  show out0_7 (F := Ideal) (((cfg0.win 0).blk t).view.read (Elt Ideal) A0 : Vec Ideal S3200x128 .f32) (((cfg0.win 1).blk t).view.read (Elt Ideal) A1 : Vec Ideal S3200x128 .f32)
    (((cfg0.win 2).blk t).view.read (Elt Ideal) A2 : Vec Ideal S3200x128 .f32) (((cfg0.win 3).blk t).view.read (Elt Ideal) A3 : Vec Ideal S128x512 .bf16)
    (((cfg0.win 4).blk t).view.read (Elt Ideal) A4 : Vec Ideal S128x512 .bf16) (((cfg0.win 5).blk t).view.read (Elt Ideal) A5 : Vec Ideal S1x512 .f32)
    (((cfg0.win 6).blk t).view.read (Elt Ideal) A6 : Vec Ideal S1x512 .f32) (ix2 p j)
      = hidArr msg h cc wi wh bi bh (((cfg0.win 7).blk t).view.emb (ix2 p j))
  rw [hemb, hidArr_apply]
  refine (stored_hid (((cfg0.win 0).blk t).view.read (Elt Ideal) A0 : Vec Ideal S3200x128 .f32) (((cfg0.win 1).blk t).view.read (Elt Ideal) A1 : Vec Ideal S3200x128 .f32)
    (((cfg0.win 2).blk t).view.read (Elt Ideal) A2 : Vec Ideal S3200x128 .f32) (((cfg0.win 3).blk t).view.read (Elt Ideal) A3 : Vec Ideal S128x512 .bf16)
    (((cfg0.win 4).blk t).view.read (Elt Ideal) A4 : Vec Ideal S128x512 .bf16) (((cfg0.win 5).blk t).view.read (Elt Ideal) A5 : Vec Ideal S1x512 .f32)
    (((cfg0.win 6).blk t).view.read (Elt Ideal) A6 : Vec Ideal S1x512 .f32) p j).trans ?_
  exact hid_congr
    (funext fun k => (read_rows0 c A0 t p k ⟨t.val * 3200 + p.val, hr⟩ rfl).trans (congrFun e0 _))
    (funext fun k => (read_rows1 c A1 t p k ⟨t.val * 3200 + p.val, hr⟩ rfl).trans (congrFun e1 _))
    ((read_rows2 c A2 t p j ⟨t.val * 3200 + p.val, hr⟩ rfl).trans (congrFun e2 _))
    (funext fun q => funext fun k => (read_whole3 c A3 t k q).trans (e3 k q))
    (funext fun q => funext fun k => (read_whole4 c A4 t k q).trans (e4 k q))
    (funext fun q => (read_whole5 c A5 t q).trans (e5 q))
    (funext fun q => (read_whole6 c A6 t q).trans (e6 q)) j

end Cert.Wrote

end
-- ==== Proof.Found.lean ====
/-
  What one grid point writes back, at the arrays the region really finds.

  The row windows' arrays hold the aggregated messages, the previous hidden state and the old cell state; the weight
  windows' arrays the two weight matrices transposed; the bias windows' arrays the two biases as rows (`Staged.lean`,
  restated here for each window's array: `found_*`).  With these contents `Wrote.lean` gives what point `t` writes back:
  block `t` of `Cell.cellArr` and of `Cell.hidArr` of the aggregated messages and the six dense arguments.
-/
import proofs.«142890_j13597866459547_1_alg».proof.Proof.Gen.KernelIdeal.Value
import proofs.«142890_j13597866459547_1_alg».proof.Proof.Cell
import proofs.«142890_j13597866459547_1_alg».proof.Proof.Staged
import proofs.«142890_j13597866459547_1_alg».proof.Proof.Wrote

noncomputable section

namespace Cert.Found

open Cert.KernelIdeal Cert.KernelIdeal.Gen Idealize.ShloMosaic Idealize.ShloMosaic.TcCoe Idealize.SL.Sem
open Idealize.ShloMosaic.ValueIdx Cert.Cell Cert.Staged Cert.Wrote
open Idealize.ShloMosaic.Pipeline (Dat)

variable (m : (ℓ : Loc nD τ sig) → Buf (Elt Ideal) ℓ)

/-- The message window's array holds the aggregated messages. -/
theorem found_msg (c : Dev nD) :
    (V m c (Pipeline.arrRef spec0 0) : S400000x128.Idx → Elt Ideal .f32)
      = Cert.ReferenceIdeal.Read.val_main_v9 (F := Ideal) (m ((c : Thread nD τ).loc main_arg0)) (m ((c : Thread nD τ).loc main_arg7)) (m ((c : Thread nD τ).loc main_arg8)) := msg_staged m c

/-- The hidden-state window's array holds the previous hidden state as launched. -/
theorem found_hid (c : Dev nD) :
    (V m c (Pipeline.arrRef spec0 1) : S400000x128.Idx → Elt Ideal .f32) = m ((c : Thread nD τ).loc main_arg1) := V_main_arg1 m c

/-- The cell-state window's array holds the old cell state as launched. -/
theorem found_cell (c : Dev nD) :
    (V m c (Pipeline.arrRef spec0 2) : S400000x128.Idx → Elt Ideal .f32) = m ((c : Thread nD τ).loc main_arg2) := V_main_arg2 m c

/-- The first weight window's array holds the input-to-hidden weights transposed. -/
theorem found_wih (c : Dev nD) (k : Fin 128) (q : Fin 512) :
    (V m c (Pipeline.arrRef spec0 3) : S128x512.Idx → Elt Ideal .bf16) (ix2 k q)
      = (m ((c : Thread nD τ).loc main_arg3) : S512x128.Idx → Elt Ideal .f32) (ix2 q k) := wih_staged m c k q

/-- The second weight window's array holds the hidden-to-hidden weights transposed. -/
theorem found_whh (c : Dev nD) (k : Fin 128) (q : Fin 512) :
    (V m c (Pipeline.arrRef spec0 4) : S128x512.Idx → Elt Ideal .bf16) (ix2 k q)
      = (m ((c : Thread nD τ).loc main_arg4) : S512x128.Idx → Elt Ideal .f32) (ix2 q k) := whh_staged m c k q

/-- The first bias window's array holds the input bias as a row. -/
theorem found_bih (c : Dev nD) (q : Fin 512) :
    (V m c (Pipeline.arrRef spec0 5) : S1x512.Idx → Elt Ideal .f32) (ix2 (0 : Fin 1) q)
      = (m ((c : Thread nD τ).loc main_arg5) : S512.Idx → Elt Ideal .f32) (ix1 q) := bih_staged m c q

/-- The second bias window's array holds the hidden bias as a row. -/
theorem found_bhh (c : Dev nD) (q : Fin 512) :
    (V m c (Pipeline.arrRef spec0 6) : S1x512.Idx → Elt Ideal .f32) (ix2 (0 : Fin 1) q)
      = (m ((c : Thread nD τ).loc main_arg6) : S512.Idx → Elt Ideal .f32) (ix1 q) := bhh_staged m c q

/-- What point `t` writes back to the cell-state result is block `t` of the new cell state of every row. -/
theorem wrote_cell (c : Dev nD) (t : Fin cfg0.N) :
    (dats m 0 c).flushed 8 t = ((cfg0.win 8).blk t).view.read (Elt Ideal)
      (cellArr (Cert.ReferenceIdeal.Read.val_main_v9 (F := Ideal) (m ((c : Thread nD τ).loc main_arg0)) (m ((c : Thread nD τ).loc main_arg7)) (m ((c : Thread nD τ).loc main_arg8)))
        (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Value.flushed8]
  exact wrote_cell_of c t (V m c (Pipeline.arrRef spec0 0)) (V m c (Pipeline.arrRef spec0 1)) (V m c (Pipeline.arrRef spec0 2)) (V m c (Pipeline.arrRef spec0 3))
    (V m c (Pipeline.arrRef spec0 4)) (V m c (Pipeline.arrRef spec0 5)) (V m c (Pipeline.arrRef spec0 6))
    (Cert.ReferenceIdeal.Read.val_main_v9 (F := Ideal) (m ((c : Thread nD τ).loc main_arg0)) (m ((c : Thread nD τ).loc main_arg7)) (m ((c : Thread nD τ).loc main_arg8)))
    (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (found_msg m c) (found_hid m c) (found_cell m c) (found_wih m c) (found_whh m c) (found_bih m c) (found_bhh m c)

/-- What point `t` writes back to the hidden-state result is block `t` of the new hidden state of every row. -/
theorem wrote_hid (c : Dev nD) (t : Fin cfg0.N) :
    (dats m 0 c).flushed 7 t = ((cfg0.win 7).blk t).view.read (Elt Ideal)
      (hidArr (Cert.ReferenceIdeal.Read.val_main_v9 (F := Ideal) (m ((c : Thread nD τ).loc main_arg0)) (m ((c : Thread nD τ).loc main_arg7)) (m ((c : Thread nD τ).loc main_arg8)))
        (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Value.flushed7]
  exact wrote_hid_of c t (V m c (Pipeline.arrRef spec0 0)) (V m c (Pipeline.arrRef spec0 1)) (V m c (Pipeline.arrRef spec0 2)) (V m c (Pipeline.arrRef spec0 3))
    (V m c (Pipeline.arrRef spec0 4)) (V m c (Pipeline.arrRef spec0 5)) (V m c (Pipeline.arrRef spec0 6))
    (Cert.ReferenceIdeal.Read.val_main_v9 (F := Ideal) (m ((c : Thread nD τ).loc main_arg0)) (m ((c : Thread nD τ).loc main_arg7)) (m ((c : Thread nD τ).loc main_arg8)))
    (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (found_msg m c) (found_hid m c) (found_cell m c) (found_wih m c) (found_whh m c) (found_bih m c) (found_bhh m c)

end Cert.Found

end
-- ==== Proof.Covered.lean ====
/-
  The 125 blocks of each result cover it: row `r` lies in the block of the point `r / 3200`, all 128 columns are in every
  block, and every point writes its block back.
-/
import proofs.«142890_j13597866459547_1_alg».proof.Proof.Gen.KernelIdeal.Value
import proofs.«142890_j13597866459547_1_alg».proof.Proof.Tiles

noncomputable section

namespace Cert.Covered

open Cert.KernelIdeal Cert.KernelIdeal.Gen Idealize.ShloMosaic Idealize.ShloMosaic.TcCoe Idealize.SL.Sem
open Idealize.ShloMosaic.ValueIdx Cert.Tiles
open Idealize.ShloMosaic.Pipeline (Dat)

/-- Every entry of the cell-state result lies in the block of the point `row / 3200`, which writes back. -/
theorem covered_cell (i : S400000x128.Idx) :
    ∃ t : Fin cfg0.N, (cfg0.win 8).flush t = true ∧ i ∈ ((cfg0.win 8).blk t).view.set := by
  have hi0 : (i 0).val < 400000 := (i 0).isLt
  have hi1 : (i 1).val < 128 := (i 1).isLt
  have hN : cfg0.N = 125 := N_0
  have hq : (i 0).val / 3200 < cfg0.N := by rw [hN]; omega
  obtain ⟨-, -, -, -, -, -, -, -, -, -, -, -, -, -, h70, h71, h80, h81⟩ := tiles ⟨(i 0).val / 3200, hq⟩
  refine ⟨⟨(i 0).val / 3200, hq⟩, flush0_8 _, ?_⟩
  show i ∈ ((View.whole main_v16_1).slice (win0_8.rect ⟨(i 0).val / 3200, hq⟩)).set
  rw [View.set_slice_whole, Rect.mem_set_unit]
  intro a
  match a with
  | ⟨0, _⟩ =>
    show win0_8.index ⟨(i 0).val / 3200, hq⟩ (0 : Fin 2) * 3200 ≤ (i 0).val
      ∧ (i 0).val < win0_8.index ⟨(i 0).val / 3200, hq⟩ (0 : Fin 2) * 3200 + 3200
    rw [h80]; show (i 0).val / 3200 * 3200 ≤ (i 0).val ∧ (i 0).val < (i 0).val / 3200 * 3200 + 3200; omega
  | ⟨1, _⟩ =>
    show win0_8.index ⟨(i 0).val / 3200, hq⟩ (1 : Fin 2) * 128 ≤ (i 1).val
      ∧ (i 1).val < win0_8.index ⟨(i 0).val / 3200, hq⟩ (1 : Fin 2) * 128 + 128
    rw [h81]; omega

/-- Every entry of the hidden-state result lies in the block of the point `row / 3200`, which writes back. -/
theorem covered_hid (i : S400000x128.Idx) :
    ∃ t : Fin cfg0.N, (cfg0.win 7).flush t = true ∧ i ∈ ((cfg0.win 7).blk t).view.set := by
  have hi0 : (i 0).val < 400000 := (i 0).isLt
  have hi1 : (i 1).val < 128 := (i 1).isLt
  have hN : cfg0.N = 125 := N_0
  have hq : (i 0).val / 3200 < cfg0.N := by rw [hN]; omega
  obtain ⟨-, -, -, -, -, -, -, -, -, -, -, -, -, -, h70, h71, h80, h81⟩ := tiles ⟨(i 0).val / 3200, hq⟩
  refine ⟨⟨(i 0).val / 3200, hq⟩, flush0_7 _, ?_⟩
  show i ∈ ((View.whole main_v16_0).slice (win0_7.rect ⟨(i 0).val / 3200, hq⟩)).set
  rw [View.set_slice_whole, Rect.mem_set_unit]
  intro a
  match a with
  | ⟨0, _⟩ =>
    show win0_7.index ⟨(i 0).val / 3200, hq⟩ (0 : Fin 2) * 3200 ≤ (i 0).val
      ∧ (i 0).val < win0_7.index ⟨(i 0).val / 3200, hq⟩ (0 : Fin 2) * 3200 + 3200
    rw [h70]; show (i 0).val / 3200 * 3200 ≤ (i 0).val ∧ (i 0).val < (i 0).val / 3200 * 3200 + 3200; omega
  | ⟨1, _⟩ =>
    show win0_7.index ⟨(i 0).val / 3200, hq⟩ (1 : Fin 2) * 128 ≤ (i 1).val
      ∧ (i 1).val < win0_7.index ⟨(i 0).val / 3200, hq⟩ (1 : Fin 2) * 128 + 128
    rw [h71]; omega

end Cert.Covered

end
-- ==== Proof.ArrayCell.lean ====
/-
  The two result arrays after the kernel's run.

  Every grid point writes back its block of `Cell.hidArr` / `Cell.cellArr` (`Found.lean`) and the blocks cover the arrays
  (`Covered.lean`), so each result array ends holding the function whole, and the kernel's run is re-stated with the
  two results named as functions of the arguments.
-/
import proofs.«142890_j13597866459547_1_alg».proof.Proof.Gen.KernelIdeal.Value
import proofs.«142890_j13597866459547_1_alg».proof.Proof.Cell
import proofs.«142890_j13597866459547_1_alg».proof.Proof.Found
import proofs.«142890_j13597866459547_1_alg».proof.Proof.Covered

noncomputable section

namespace Cert.ArrayCell

open Cert.KernelIdeal Cert.KernelIdeal.Gen Idealize.ShloMosaic Idealize.ShloMosaic.TcCoe Idealize.SL.Sem
open Idealize.ShloMosaic.ValueIdx Cert.Cell Cert.Found Cert.Covered
open Idealize.ShloMosaic.Pipeline (Dat)

variable (m : (ℓ : Loc nD τ sig) → Buf (Elt Ideal) ℓ) (ρ : Dev nD → PrngReg)

/-- The cell-state result array after the run. -/
theorem final_cell (c : Dev nD) :
    (dats m 0 c).arrAt 8 cfg0.N = cellArr (Cert.ReferenceIdeal.Read.val_main_v9 (F := Ideal) (m ((c : Thread nD τ).loc main_arg0)) (m ((c : Thread nD τ).loc main_arg7)) (m ((c : Thread nD τ).loc main_arg8)))
        (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 8 _ (fun t _ => wrote_cell m c t) covered_cell

/-- The hidden-state result array after the run. -/
theorem final_hid (c : Dev nD) :
    (dats m 0 c).arrAt 7 cfg0.N = hidArr (Cert.ReferenceIdeal.Read.val_main_v9 (F := Ideal) (m ((c : Thread nD τ).loc main_arg0)) (m ((c : Thread nD τ).loc main_arg7)) (m ((c : Thread nD τ).loc main_arg8)))
        (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 7 _ (fun t _ => wrote_hid m c t) covered_hid

/-- The kernel's run, read: both results as whole-array functions of the arguments, the arguments unchanged. -/
theorem run : θ_run defs (onTc (τ := τ) (main (F := Ideal))) ⟨m, fun _ => 0, ρ⟩ fun r => ∀ c : Dev nD,
      r.2.mem ((c : Thread nD τ).loc main_v16_0) = hidArr (Cert.ReferenceIdeal.Read.val_main_v9 (F := Ideal) (m ((c : Thread nD τ).loc main_arg0)) (m ((c : Thread nD τ).loc main_arg7)) (m ((c : Thread nD τ).loc main_arg8)))
        (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v16_1) = cellArr (Cert.ReferenceIdeal.Read.val_main_v9 (F := Ideal) (m ((c : Thread nD τ).loc main_arg0)) (m ((c : Thread nD τ).loc main_arg7)) (m ((c : Thread nD τ).loc main_arg8)))
        (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (final_hid m c), (h c).2.1.trans (final_cell m c), (h c).2.2⟩)
    (Value.run_blocks m ρ)

end Cert.ArrayCell

end
-- ==== Proof.lean ====
/-
  A fused LSTM-cell update over 400000 clause rows: the kernel against its reference, on the extended reals.

  Both programs first aggregate literal features into clause rows (a gather of rows followed by a scatter-add: the same
  host operations on the same arguments in the two programs, carried through the proof as one term and never opened) and
  then update every clause row by one LSTM step,
      gates = msg · W_ihᵀ + b_ih + h0 · W_hhᵀ + b_hh,     i, f, g, o = the four 128-column blocks of the gates,
      c' = σ(f) · c0 + σ(i) · tanh(g),     h' = σ(o) · tanh(c').
  The reference does this on whole [400000, ·] arrays, spelling σ(x) as 1 / (1 + e^(-x)).  The kernel cuts the rows into 125
  blocks of 3200, is handed the weights already transposed (and narrowed to a shorter float format, which is the identity
  on the extended reals) and the biases as [1, 512] rows, and uses the logistic function directly.  Entry by entry both
  compute the same sums of the same products in the same order and apply the same functions, so the two results agree
  on every extended real; no distributivity or cancellation is used, and the precondition that the inputs are finite
  is not needed for the values (`Cell.lean`: the step, row by row; `RefCell.lean`: the reference computes it;
  `BlockCell.lean`: the kernel body computes it on a block; `Staged.lean`: what the region finds in the staged arrays;
  `ArrayCell.lean`: the 125 blocks tile the two results).

  The three programs terminate without fault and leave their arguments unchanged: for the kernel at the word level and
  for its idealization this is the generated frame of the one region; for the reference it is its generated run with
  the two results dropped.  The idealization rewrote no operation, so there is nothing to preserve beyond the text.
-/
import proofs.«142890_j13597866459547_1_alg».proof.Defs
import proofs.«142890_j13597866459547_1_alg».proof.Proof.Gen.Kernel
import proofs.«142890_j13597866459547_1_alg».proof.Proof.Gen.Kernel.Frame
import proofs.«142890_j13597866459547_1_alg».proof.Proof.Gen.KernelIdeal
import proofs.«142890_j13597866459547_1_alg».proof.Proof.Gen.KernelIdeal.Frame
import proofs.«142890_j13597866459547_1_alg».proof.Proof.Gen.ReferenceIdeal
import proofs.«142890_j13597866459547_1_alg».proof.Proof.Gen.Pre_finite_inputs
import proofs.«142890_j13597866459547_1_alg».proof.Proof.Gen.KernelIdeal.Value
import proofs.«142890_j13597866459547_1_alg».proof.Proof.Gen.ReferenceIdeal.Run
import proofs.«142890_j13597866459547_1_alg».proof.Proof.Gen.ReferenceIdeal.Read
import proofs.«142890_j13597866459547_1_alg».proof.Proof.RefCell
import proofs.«142890_j13597866459547_1_alg».proof.Proof.ArrayCell
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments unchanged: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From arguments that agree, the kernel's two result arrays and the reference's are the new hidden state and the new
    cell state of every row, as functions of the aggregated messages and of the six dense arguments. -/
theorem algebraic : Cert.algebraic_KernelIdeal_ReferenceIdeal := by
  intro m ρ m' ρ' _ hagree
  refine ⟨_, _, Cert.ArrayCell.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v48_eq, Cert.RefCell.hid_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
  · rw [Cert.ReferenceIdeal.Read.val_main_v46_eq, Cert.RefCell.cell_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
